-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S100000 32) (main_arg2 : FVec F S256x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S102400x256 : Shape := ⟨2, ![102400, 256]⟩
abbrev S102400x1 : Shape := ⟨2, ![102400, 1]⟩
abbrev S4096x256 : Shape := ⟨2, ![4096, 256]⟩
abbrev S4096x1 : Shape := ⟨2, ![4096, 1]⟩
abbrev S1x256 : Shape := ⟨2, ![1, 256]⟩
abbrev S1x1 : Shape := ⟨2, ![1, 1]⟩
abbrev S100000x1 : Shape := ⟨2, ![100000, 1]⟩
abbrev S1024 : Shape := ⟨1, ![1024]⟩

abbrev nBuf : Space → Nat
  | .hbm => 24
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .i32⟩
  | .hbm, ⟨9, _⟩ => ⟨S_, .f32⟩
  | .hbm, ⟨10, _⟩ => ⟨S102400x256, .f32⟩
  | .hbm, ⟨11, _⟩ => ⟨S102400x1, .f32⟩
  | .hbm, ⟨12, _⟩ => ⟨S100000x1, .f32⟩
  | .hbm, ⟨13, _⟩ => ⟨S100000, .f32⟩
  | .hbm, ⟨14, _⟩ => ⟨S_, .f32⟩
  | .hbm, ⟨15, _⟩ => ⟨S1024, .f32⟩
  | .hbm, ⟨16, _⟩ => ⟨S100000x1, .i32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x1, .f32⟩
  | .local _ .vmem, ⟨7, _⟩ => ⟨S1, .f32⟩
  | .local _ .vmem, ⟨8, _⟩ => ⟨S4096x1, .f32⟩
  | .local _ .vmem, ⟨9, _⟩ => ⟨S4096x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S100000x256_S102400x256_024000_000 : S100000x256.Pads (![0, 0] : Fin 2 → Nat) ![2400, 0] ![0, 0] S102400x256
  h_S_ : 0 < S_.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S102400x1_S100000x1_0_0 : S102400x1.Slices ![0, 0] S100000x1
  shapeCasts_S100000x1_S100000 : S100000x1.ShapeCasts S100000
  bcast_S_S1024 : S_.BroadcastsInDim S1024 (![] : Fin 0 → Fin S1024.rank)
  bcast_S100000_S100000x1_0 : S100000.BroadcastsInDim S100000x1 (![0] : Fin 1 → Fin S100000x1.rank)
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  scatter_S1024_S100000x1_S100000_n_0_0_1_wf : ScatterDims.WF S1024 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S102400x256.size a
  hwx0_0 : ∀ i : grid0.Coords, EltTy.bits .f32 = 32 ∨ (Rect.block (s := S102400x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S102400x1.size a
  hwx0_7 : ∀ i : grid0.Coords, EltTy.bits .f32 = 32 ∨ (Rect.block (s := S102400x1) S4096x1.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩
abbrev S100000x1 : Shape := ⟨2, ![100000, 1]⟩
abbrev S1x1 : Shape := ⟨2, ![1, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S100000x256, .f32⟩
  | .hbm, ⟨9, _⟩ => ⟨S1x256, .f32⟩
  | .hbm, ⟨10, _⟩ => ⟨S100000x256, .f32⟩
  | .hbm, ⟨11, _⟩ => ⟨S100000x256, .f32⟩
  | .hbm, ⟨12, _⟩ => ⟨S100000x256, .f32⟩
  | .hbm, ⟨13, _⟩ => ⟨S100000x256, .f32⟩
  | .hbm, ⟨14, _⟩ => ⟨S_, .f32⟩
  | .hbm, ⟨15, _⟩ => ⟨S100000x256, .f32⟩
  | .hbm, ⟨16, _⟩ => ⟨S100000x256, .f32⟩
  | .hbm, ⟨17, _⟩ => ⟨S_, .f32⟩
  | .hbm, ⟨18, _⟩ => ⟨S100000x256, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S1x256, .f32⟩
  | .hbm, ⟨23, _⟩ => ⟨S100000x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S100000x256, .f32⟩
  | .hbm, ⟨34, _⟩ => ⟨S100000x1, .f32⟩
  | .hbm, ⟨35, _⟩ => ⟨S1x1, .f32⟩
  | .hbm, ⟨36, _⟩ => ⟨S100000x1, .f32⟩
  | .hbm, ⟨37, _⟩ => ⟨S100000x1, .f32⟩
  | .hbm, ⟨38, _⟩ => ⟨S100000, .f32⟩
  | .hbm, ⟨39, _⟩ => ⟨S_, .f32⟩
  | .hbm, ⟨40, _⟩ => ⟨S1024, .f32⟩
  | .hbm, ⟨41, _⟩ => ⟨S100000x1, .i32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S1024 : S_.BroadcastsInDim S1024 (![] : Fin 0 → Fin S1024.rank)
  bcast_S100000_S100000x1_0 : S100000.BroadcastsInDim S100000x1 (![0] : Fin 1 → Fin S100000x1.rank)
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []
  scatter_S1024_S100000x1_S100000_n_0_0_1_wf : ScatterDims.WF S1024 S100000x1 S100000 [] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf

class Facts : Prop extends Facts₀ where

variable [Facts]
-- ==== Proof.AtomEnergy.lean ====
/-
  One atom's energy as a function of its row of 256 features.

  Both programs send an atom's feature row `x` through the same three dense layers over the extended reals:
    h¹ⱼ = s (Σᵢ xᵢ · W¹ᵢⱼ + b¹ⱼ),   h²ₖ = s (Σⱼ h¹ⱼ · W²ⱼₖ + b²ₖ),   e = Σₖ h²ₖ · W³ₖ₀ + b³₀,
  with `s v = v · 1 / (1 + e^(−v))` the sigmoid-weighted linear unit.  Nothing here depends on which atom the row
  belongs to, on how the atoms are grouped into blocks, or on the other atoms' rows: that is the whole reason the
  blocked computation and the one-shot computation agree.  The only difference in spelling between the two sides is
  the unit itself — one side applies the logistic function as one operation, the other writes out the quotient
  `1 / (1 + e^(−v))` with the word of the number one — and on the extended reals the logistic function IS that
  quotient, at the infinities too, so no finiteness is used.
-/
import Idealize.ShloMosaic.PureOps.Ideal
import Idealize.ShloMosaic.Lib.ValueIdx
import Idealize.ShloMosaic.Lib.IdealHost

noncomputable section

namespace Cert.AtomEnergy

open Idealize.ShloMosaic Idealize.ShloMosaic.ValueIdx

/-- The sigmoid-weighted linear unit on the extended reals: `v · logistic v`, with `logistic v = 1 / (1 + e^(−v))`. -/
def silu (v : EReal) : EReal := v * Ideal.logistic v

/-- One hidden layer at output feature `j`: the unit applied to the row's product with column `j` of the weights plus
    the bias. -/
def hidden (x : Fin 256 → EReal) (W : (⟨2, ![256, 256]⟩ : Shape).Idx → EReal) (b : (⟨1, ![256]⟩ : Shape).Idx → EReal)
    (j : Fin 256) : EReal :=
  silu ((∑ i : Fin 256, x i * W (ix2 i j)) + b (ix1 j))

/-- The atom's energy: two hidden layers, then the product with the one output column plus the output bias. -/
def energy (x : Fin 256 → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) : EReal :=
  (∑ k : Fin 256, hidden (hidden x W1 b1) W2 b2 k * W3 (ix2 k (0 : Fin 1))) + b3 (ix1 (0 : Fin 1))

/-- The unit written out as a quotient with the 32-bit word of one, `v · (1 / (1 + e^(−v)))`, is the unit: the word
    denotes the number one and the logistic function is by definition that quotient. -/
theorem silu_quotient (v : EReal) :
    v * Ideal.div (Ideal.ofBits .f32 0x3F800000#32) (Ideal.ofBits .f32 0x3F800000#32 + Ideal.exp (-v)) = silu v := by
  rw [Ideal.ofBits_one_f32]
  rfl

end Cert.AtomEnergy

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«146639_j12189117186315_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KernelRow.lean ====
/-
  What the kernel's body stores for one row of its block.

  The body loads a block of 4096 feature rows and the three layers' weights and biases whole, and stores one
  [4096, 1] column.  Each matrix product contracts the second axis of its left operand against the first axis of its
  right operand into a zero accumulator, so entry (r, j) of a product is `Σᵢ l(r, i) · w(i, j)`; a bias vector is viewed
  as one row and spread down the 4096 rows, so it adds `b(j)` at (r, j); the roundings to the 16-bit format before
  each product are the identity on extended reals; and the unit `v · logistic v` acts entry by entry.  Hence row `r`
  of the stored column is the energy of feature row `r` of the block, and of no other row.
-/
import proofs.«146639_j12189117186315_1_alg».proof.Proof.Gen.KernelIdeal.Skeleton
import proofs.«146639_j12189117186315_1_alg».proof.Proof.AtomEnergy
import proofs.«146639_j12189117186315_1_alg».proof.Proof.LibPlainDotFormats
import proofs.«146639_j12189117186315_1_alg».proof.Proof.LibRowLayout
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx
open Cert.AtomEnergy Cert.LibPlainDot Cert.LibRowLayout

/-- The two hidden layers' products are plain [4096, 256] × [256, 256] products. -/
theorem plain_hidden : Plain dot_S4096x256_S256x256_S4096x256_1_0_0_1_n_n := ⟨rfl, rfl, rfl, rfl, rfl, rfl⟩

/-- The output layer's product is a plain [4096, 256] × [256, 1] product. -/
theorem plain_out : Plain dot_S4096x256_S256x1_S4096x1_1_0_0_1_n_n := ⟨rfl, rfl, rfl, rfl, rfl, rfl⟩

/-- A hidden layer before the unit, as the body spells it: the product of the rounded operands into zero, plus the bias
    viewed as a row and spread down the rows. -/
def preact (l : FVec Ideal S4096x256 .f32) (W : Vec Ideal S256x256 .f32) (b : Vec Ideal S256 .f32) : FVec Ideal S4096x256 .f32 :=
  addf (matmul dot_S4096x256_S256x256_S4096x256_1_0_0_1_n_n none (truncf .bf16 l bitsLt_bf16_f32) (truncf .bf16 W bitsLt_bf16_f32)
      (constant (F := Ideal) S4096x256 .f32 0x00000000#32))
    (broadcastTo S4096x256 (shapeCast S1x256 b shapeCasts_S256_S1x256) broadcasts_S1x256_S4096x256)

/-- A hidden layer of the block: the unit of the pre-activation, entry by entry. -/
def layer (l : FVec Ideal S4096x256 .f32) (W : Vec Ideal S256x256 .f32) (b : Vec Ideal S256 .f32) : FVec Ideal S4096x256 .f32 :=
  mulf (preact l W b) (logistic (preact l W b))

/-- The stored column is the output layer over two hidden layers of the loaded block. -/
theorem pay_eq (v0 : Vec Ideal S4096x256 .f32) (v3 : Vec Ideal S256x256 .f32) (v6 : Vec Ideal S256 .f32)
    (v13 : Vec Ideal S256x256 .f32) (v16 : Vec Ideal S256 .f32) (v23 : Vec Ideal S256x1 .f32) (v26 : Vec Ideal S1 .f32) :
    k0_pay1 (F := Ideal) v0 v3 v6 v13 v16 v23 v26
      = addf (matmul dot_S4096x256_S256x1_S4096x1_1_0_0_1_n_n none
            (truncf .bf16 (layer (layer (shapeCast S4096x256 v0 shapeCasts_S4096x256_S4096x256) v3 v6) v13 v16) bitsLt_bf16_f32)
            (truncf .bf16 v23 bitsLt_bf16_f32) (constant (F := Ideal) S4096x1 .f32 0x00000000#32))
          (broadcastTo S4096x1 (shapeCast S1x1 v26 shapeCasts_S1_S1x1) broadcasts_S1x1_S4096x1) := rfl

/-- Entry (r, j) of a pre-activation: row `r` of the operand against column `j` of the weights, plus bias `j`. -/
theorem preact_apply (l : FVec Ideal S4096x256 .f32) (W : Vec Ideal S256x256 .f32) (b : Vec Ideal S256 .f32)
    (r : Fin 4096) (j : Fin 256) :
    preact l W b (ix2 r j) = (∑ i : Fin 256, l (ix2 r i) * W (ix2 i j)) + b (ix1 j) := by
  show FloatOps.matmul dot_S4096x256_S256x256_S4096x256_1_0_0_1_n_n none (truncf .bf16 l bitsLt_bf16_f32) (truncf .bf16 W bitsLt_bf16_f32)
        (constant (F := Ideal) S4096x256 .f32 0x00000000#32) (ix2 r j)
      + broadcastTo S4096x256 (shapeCast S1x256 b shapeCasts_S256_S1x256) broadcasts_S1x256_S4096x256 (ix2 r j) = _
  rw [plain_hidden.matmul_zero_apply_formats none _ _ r j, broadcastTo_1b_ab_apply, shapeCast_b_1b_apply]
  rfl

/-- Entry (r, j) of a hidden layer is the layer of row `r` at feature `j`. -/
theorem layer_apply (l : FVec Ideal S4096x256 .f32) (W : Vec Ideal S256x256 .f32) (b : Vec Ideal S256 .f32)
    (r : Fin 4096) (j : Fin 256) :
    layer l W b (ix2 r j) = hidden (fun i => l (ix2 r i)) W b j := by
  show preact l W b (ix2 r j) * Ideal.logistic (preact l W b (ix2 r j)) = _
  rw [preact_apply]
  rfl

/-- ROW `r` OF THE STORED COLUMN is the energy of feature row `r` of the loaded block. -/
theorem pay_apply (v0 : Vec Ideal S4096x256 .f32) (v3 : Vec Ideal S256x256 .f32) (v6 : Vec Ideal S256 .f32)
    (v13 : Vec Ideal S256x256 .f32) (v16 : Vec Ideal S256 .f32) (v23 : Vec Ideal S256x1 .f32) (v26 : Vec Ideal S1 .f32)
    (r : Fin 4096) :
    k0_pay1 (F := Ideal) v0 v3 v6 v13 v16 v23 v26 (ix2 r (0 : Fin 1))
      = energy (fun i => v0 (ix2 r i)) v3 v6 v13 v16 v23 v26 := by
  rw [pay_eq]
  show FloatOps.matmul dot_S4096x256_S256x1_S4096x1_1_0_0_1_n_n none
        (truncf .bf16 (layer (layer (shapeCast S4096x256 v0 shapeCasts_S4096x256_S4096x256) v3 v6) v13 v16) bitsLt_bf16_f32)
        (truncf .bf16 v23 bitsLt_bf16_f32) (constant (F := Ideal) S4096x1 .f32 0x00000000#32) (ix2 r (0 : Fin 1))
      + broadcastTo S4096x1 (shapeCast S1x1 v26 shapeCasts_S1_S1x1) broadcasts_S1x1_S4096x1 (ix2 r (0 : Fin 1)) = _
  rw [plain_out.matmul_zero_apply_formats none _ _ r (0 : Fin 1), broadcastTo_1b_ab_apply, shapeCast_b_1b_apply]
  simp only [truncf_apply, layer_apply, shapeCast_self]
  rfl

/-- The same at any index of the stored column: its second coordinate can only be the one column. -/
theorem pay_at (v0 : Vec Ideal S4096x256 .f32) (v3 : Vec Ideal S256x256 .f32) (v6 : Vec Ideal S256 .f32)
    (v13 : Vec Ideal S256x256 .f32) (v16 : Vec Ideal S256 .f32) (v23 : Vec Ideal S256x1 .f32) (v26 : Vec Ideal S1 .f32)
    (y : S4096x1.Idx) :
    k0_pay1 (F := Ideal) v0 v3 v6 v13 v16 v23 v26 y = energy (fun i => v0 (ix2 (y 0) i)) v3 v6 v13 v16 v23 v26 := by
  obtain ⟨r, q, rfl⟩ : ∃ (r : Fin 4096) (q : Fin 1), y = ix2 r q := ⟨y 0, y 1, eq_ix2 y⟩
  obtain rfl : q = 0 := Subsingleton.elim _ _
  exact pay_apply v0 v3 v6 v13 v16 v23 v26 r

end Cert.KernelIdeal.Row

end
-- ==== Proof.KernelEnergies.lean ====
/-
  From the blocks the body stores to the whole column of energies.

  The output is a [102400, 1] column cut into 25 blocks of 4096 rows; grid point `t` stores block `t`, computed
  from block `t` of the padded feature array (the same 4096 rows) and from the six weight and bias arrays, each of
  which is one block that every point reads whole.  Row `r` of what point `t` stores is the energy of padded feature
  row `4096·t + r`, that is, of the array row under it; the 25 blocks tile the 102400 rows, row `a` lying in block
  `a / 4096`.  So after the run the column holds, at every row, the energy of the padded array's row.  The padding
  adds 2400 rows below the 100000 atoms and nothing to the right, so a padded row below 100000 is the atom's row.
-/
import proofs.«146639_j12189117186315_1_alg».proof.Proof.Gen.KernelIdeal.Frame
import proofs.«146639_j12189117186315_1_alg».proof.Proof.KernelRow
import Idealize.ShloMosaic.Lib.Pipeline.Value
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Energies

open Cert.KernelIdeal Cert.KernelIdeal.Gen Cert.AtomEnergy

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The column of energies of an array of 102400 feature rows: row `a` holds the energy of row `a`. -/
def column (P : S102400x256.Idx → EReal)
    (W1 : S256x256.Idx → EReal) (b1 : S256.Idx → EReal) (W2 : S256x256.Idx → EReal) (b2 : S256.Idx → EReal)
    (W3 : S256x1.Idx → EReal) (b3 : S1.Idx → EReal) : S102400x1.Idx → EReal :=
  fun j => energy (fun i => P (ix2 (j 0) i)) W1 b1 W2 b2 W3 b3

/-- The energy depends on its seven arguments only. -/
theorem energy_congr {x x' : Fin 256 → EReal} {W1 W1' : S256x256.Idx → EReal} {b1 b1' : S256.Idx → EReal}
    {W2 W2' : S256x256.Idx → EReal} {b2 b2' : S256.Idx → EReal} {W3 W3' : S256x1.Idx → EReal} {b3 b3' : S1.Idx → EReal}
    (hx : x = x') (h1 : W1 = W1') (h2 : b1 = b1') (h3 : W2 = W2') (h4 : b2 = b2') (h5 : W3 = W3') (h6 : b3 = b3') :
    energy x W1 b1 W2 b2 W3 b3 = energy x' W1' b1' W2' b2' W3' b3' := by
  subst hx h1 h2 h3 h4 h5 h6; rfl

/-- The printed index maps over the grid: the feature block and the output block move together down the rows, one
    block per point; every weight and bias array is its own single block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- A window whose one block is the whole array reads the array itself at every point. -/
theorem iblk1 (c : Dev nD) (t : Fin cfg0.N) : (iblk m c 1 t : Vec Ideal S256x256 .f32) = V m c main_arg2 := by
  obtain ⟨-, -, e0, e1, -⟩ := idx_facts t
  funext z
  show V m c main_arg2 (((cfg0.win 1).blk t).view.emb z) = V m c main_arg2 z
  congr 1; funext a; apply Fin.ext
  match a with
  | ⟨0, _⟩ => show win0_1.index t (0 : Fin 2) * 256 + 1 * (z 0).val = (z 0).val; omega
  | ⟨1, _⟩ => show win0_1.index t (1 : Fin 2) * 256 + 1 * (z 1).val = (z 1).val; omega

theorem iblk2 (c : Dev nD) (t : Fin cfg0.N) : (iblk m c 2 t : Vec Ideal S256 .f32) = V m c main_arg3 := by
  obtain ⟨-, -, -, -, e0, -⟩ := idx_facts t
  funext z
  show V m c main_arg3 (((cfg0.win 2).blk t).view.emb z) = V m c main_arg3 z
  congr 1; funext a; apply Fin.ext
  match a with
  | ⟨0, _⟩ => show win0_2.index t (0 : Fin 1) * 256 + 1 * (z 0).val = (z 0).val; omega

theorem iblk3 (c : Dev nD) (t : Fin cfg0.N) : (iblk m c 3 t : Vec Ideal S256x256 .f32) = V m c main_arg4 := by
  obtain ⟨-, -, -, -, -, e0, e1, -⟩ := idx_facts t
  funext z
  show V m c main_arg4 (((cfg0.win 3).blk t).view.emb z) = V m c main_arg4 z
  congr 1; funext a; apply Fin.ext
  match a with
  | ⟨0, _⟩ => show win0_3.index t (0 : Fin 2) * 256 + 1 * (z 0).val = (z 0).val; omega
  | ⟨1, _⟩ => show win0_3.index t (1 : Fin 2) * 256 + 1 * (z 1).val = (z 1).val; omega

theorem iblk4 (c : Dev nD) (t : Fin cfg0.N) : (iblk m c 4 t : Vec Ideal S256 .f32) = V m c main_arg5 := by
  obtain ⟨-, -, -, -, -, -, -, e0, -⟩ := idx_facts t
  funext z
  show V m c main_arg5 (((cfg0.win 4).blk t).view.emb z) = V m c main_arg5 z
  congr 1; funext a; apply Fin.ext
  match a with
  | ⟨0, _⟩ => show win0_4.index t (0 : Fin 1) * 256 + 1 * (z 0).val = (z 0).val; omega

theorem iblk5 (c : Dev nD) (t : Fin cfg0.N) : (iblk m c 5 t : Vec Ideal S256x1 .f32) = V m c main_arg6 := by
  obtain ⟨-, -, -, -, -, -, -, -, e0, e1, -⟩ := idx_facts t
  funext z
  show V m c main_arg6 (((cfg0.win 5).blk t).view.emb z) = V m c main_arg6 z
  congr 1; funext a; apply Fin.ext
  match a with
  | ⟨0, _⟩ => show win0_5.index t (0 : Fin 2) * 256 + 1 * (z 0).val = (z 0).val; omega
  | ⟨1, _⟩ => show win0_5.index t (1 : Fin 2) * 1 + 1 * (z 1).val = (z 1).val; omega

theorem iblk6 (c : Dev nD) (t : Fin cfg0.N) : (iblk m c 6 t : Vec Ideal S1 .f32) = V m c main_arg7 := by
  obtain ⟨-, -, -, -, -, -, -, -, -, -, e0, -⟩ := idx_facts t
  funext z
  show V m c main_arg7 (((cfg0.win 6).blk t).view.emb z) = V m c main_arg7 z
  congr 1; funext a; apply Fin.ext
  match a with
  | ⟨0, _⟩ => show win0_6.index t (0 : Fin 1) * 1 + 1 * (z 0).val = (z 0).val; omega

/-- WHAT POINT `t` WRITES BACK is block `t` of the column of energies of the arrays as the region finds them. -/
theorem flushed_eq (c : Dev nD) (t : Fin cfg0.N) :
    (dats m 0 c).flushed 7 t = ((cfg0.win 7).blk t).view.read (Elt Ideal)
      (column (V m c main_v0) (V m c main_arg2) (V m c main_arg3) (V m c main_arg4) (V m c main_arg5) (V m c main_arg6) (V m c main_arg7)) := by
  show (cfg0.win 7).cut (grid0.coords t) ((dats m 0 c).after 7 t) = _
  rw [after0_7]
  unfold out0_7
  rw [View.canon_unit_zero hz2]
  simp only [View.ld_unit_zero (S := S4096x256) hz2, View.ld_unit_zero (S := S256x256) hz2, View.ld_unit_zero (S := S256) hz1,
    View.ld_unit_zero (S := S256x1) hz2, View.ld_unit_zero (S := S1) hz1]
  obtain ⟨e00, e01, -, -, -, -, -, -, -, -, -, e70, e71⟩ := idx_facts t
  funext y
  show k0_pay1 (F := Ideal) (iblk m c 0 t) (iblk m c 1 t) (iblk m c 2 t) (iblk m c 3 t) (iblk m c 4 t) (iblk m c 5 t) (iblk m c 6 t) y
    = column (V m c main_v0) (V m c main_arg2) (V m c main_arg3) (V m c main_arg4) (V m c main_arg5) (V m c main_arg6) (V m c main_arg7)
        (((cfg0.win 7).blk t).view.emb y)
  refine (Row.pay_at (iblk m c 0 t) (iblk m c 1 t) (iblk m c 2 t) (iblk m c 3 t) (iblk m c 4 t) (iblk m c 5 t) (iblk m c 6 t) y).trans ?_
  refine energy_congr (funext fun i => ?_) (iblk1 m c t) (iblk2 m c t) (iblk3 m c t) (iblk4 m c t) (iblk5 m c t) (iblk6 m c t)
  show V m c main_v0 (((cfg0.win 0).blk t).view.emb (ix2 (y 0) i)) = V m c main_v0 (ix2 ((((cfg0.win 7).blk t).view.emb y) 0) i)
  congr 1; funext a; apply Fin.ext
  match a with
  | ⟨0, _⟩ => show win0_0.index t (0 : Fin 2) * 4096 + 1 * (y 0).val = win0_7.index t (0 : Fin 2) * 4096 + 1 * (y 0).val; omega
  | ⟨1, _⟩ => show win0_0.index t (1 : Fin 2) * 256 + 1 * i.val = i.val; omega

/-- An index of the column is in point `t`'s block iff each coordinate is in the block's range on its axis. -/
theorem mem_blk (t : Fin cfg0.N) (i : S102400x1.Idx) :
    i ∈ ((cfg0.win 7).blk t).view.set ↔ ∀ a : Fin 2, win0_7.index t a * S4096x1.size a ≤ (i a).val ∧ (i a).val < win0_7.index t a * S4096x1.size a + S4096x1.size a := by
  show i ∈ ((View.whole main_v1).slice (win0_7.rect t)).set ↔ _
  rw [View.set_slice_whole, Rect.mem_set_unit]
  exact Iff.rfl

/-- Every row of the column lies in some point's block: row `a` in block `a / 4096`. -/
theorem cover (i : S102400x1.Idx) : ∃ t : Fin cfg0.N, (cfg0.win 7).flush t = true ∧ i ∈ ((cfg0.win 7).blk t).view.set := by
  have hi0 : (i 0).val < 102400 := (i 0).isLt
  have hi1 : (i 1).val < 1 := (i 1).isLt
  have hN : cfg0.N = 25 := N_0
  have ht : (i 0).val / 4096 < cfg0.N := by rw [hN]; omega
  obtain ⟨-, -, -, -, -, -, -, -, -, -, -, e70, e71⟩ := idx_facts ⟨(i 0).val / 4096, ht⟩
  refine ⟨⟨(i 0).val / 4096, ht⟩, flush0_7 _, ?_⟩
  rw [mem_blk]
  intro a
  match a with
  | ⟨0, _⟩ =>
    show win0_7.index ⟨(i 0).val / 4096, ht⟩ (0 : Fin 2) * 4096 ≤ (i 0).val ∧ (i 0).val < win0_7.index ⟨(i 0).val / 4096, ht⟩ (0 : Fin 2) * 4096 + 4096
    rw [e70]; show (i 0).val / 4096 * 4096 ≤ (i 0).val ∧ (i 0).val < (i 0).val / 4096 * 4096 + 4096; omega
  | ⟨1, _⟩ =>
    show win0_7.index ⟨(i 0).val / 4096, ht⟩ (1 : Fin 2) * 1 ≤ (i 1).val ∧ (i 1).val < win0_7.index ⟨(i 0).val / 4096, ht⟩ (1 : Fin 2) * 1 + 1
    rw [e71]; omega

/-- THE COLUMN after the run: at every row, the energy of the padded array's row. -/
theorem final (c : Dev nD) : (dats m 0 c).arrAt 7 cfg0.N
    = column (V m c main_v0) (V m c main_arg2) (V m c main_arg3) (V m c main_arg4) (V m c main_arg5) (V m c main_arg6) (V m c main_arg7) :=
  (dats m 0 c).arrAt_eq_of_cover 7 _ (fun t _ => flushed_eq m c t) cover

end Cert.KernelIdeal.Energies

end
-- ==== Proof.KernelResult.lean ====
/-
  The kernel program's result as a function of its arguments.

  Before the blocked computation the features are padded with 2400 rows below the 100000 atoms; after it the first
  100000 rows of the column are kept and the unit axis dropped, which leaves atom `p`'s energy at entry `p` — the
  padding rows are computed and thrown away, and no kept entry depends on them.  The energies are then summed into
  1024 molecule bins by the molecule-number array (a scatter with addition into zeros), scaled and shifted.
-/
import proofs.«146639_j12189117186315_1_alg».proof.Proof.KernelEnergies

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.AtomEnergy Cert.KernelIdeal.Energies

/-- The atoms' energies: entry `a` is the energy of feature row `a`. -/
def energies (X : S100000x256.Idx → EReal)
    (W1 : S256x256.Idx → EReal) (b1 : S256.Idx → EReal) (W2 : S256x256.Idx → EReal) (b2 : S256.Idx → EReal)
    (W3 : S256x1.Idx → EReal) (b3 : S1.Idx → EReal) : S100000.Idx → EReal :=
  fun a => energy (fun i => X (ix2 (a 0) i)) W1 b1 W2 b2 W3 b3

/-- Pooling and rescaling: the energies summed into zeros at their molecule numbers, times the scale, plus the shift
    (the three constants as their 32-bit words). -/
def pooled (batch : (⟨S100000, .i32⟩ : BufTy).Contents (Elt Ideal)) (e : (⟨S100000, .f32⟩ : BufTy).Contents (Elt Ideal)) :
    (⟨S1024, .f32⟩ : BufTy).Contents (Elt Ideal) :=
  addf
    (mulf
      (Host.scatterAdd scatter_S1024_S100000x1_S100000_n_0_0_1
        (broadcastInDim S1024 ![] bcast_S_S1024 (constant (F := Ideal) S_ .f32 0x00000000#32))
        (broadcastInDim S100000x1 ![0] bcast_S100000_S100000x1_0 batch) e)
      (broadcastInDim S1024 ![] bcast_S_S1024 (constant (F := Ideal) S_ .f32 0x40BFC0BD#32)))
    (broadcastInDim S1024 ![] bcast_S_S1024 (constant (F := Ideal) S_ .f32 0xC8C66054#32))

variable (m : (ℓ : Loc nD τ sig) → Buf (Elt Ideal) ℓ) (ρ : Dev nD → PrngReg)

/-- The feature array as the region finds it: the argument padded with 2400 rows below and nothing to the right. -/
theorem padded (c : Dev nD) :
    (V m c main_v0 : S102400x256.Idx → EReal)
      = pad S102400x256 ![0, 0] ![2400, 0] ![0, 0] (m ((c : Thread nD τ).loc main_arg0))
          (sitofp .f32 (constantI S_ 32 0#32) : FVec Ideal S_ .f32) pads_S100000x256_S102400x256_024000_000 h_S_ := by
  dsimp only [V, V0]
  simp only [hostOps0, hostOps0_1, List.flatten_cons, List.flatten_nil, List.append_nil, List.cons_append, List.nil_append]
  after_results
  rfl

/-- A padded row below 100000 is the atom's row. -/
theorem padded_row (c : Dev nD) (p : Fin 100000) (i : Fin 256) :
    (V m c main_v0 : S102400x256.Idx → EReal) (ix2 (⟨p.val, by have := p.isLt; omega⟩ : Fin 102400) i)
      = (m ((c : Thread nD τ).loc main_arg0) : S100000x256.Idx → EReal) (ix2 p i) := by
  rw [padded]
  refine pad_apply_of_inside _ _ _ _ _ _ _ _ (ix2 p i) fun a => ?_
  match a with
  | ⟨0, _⟩ => show p.val = 0 + p.val * (0 + 1); omega
  | ⟨1, _⟩ => show i.val = 0 + i.val * (0 + 1); omega

/-- The first 100000 rows of the column of energies of the padded array, with the unit axis dropped, are the atoms'
    energies. -/
theorem kept (c : Dev nD) :
    shapeCast S100000
      (extractStridedSlice S100000x1 ![0, 0]
        (column (V m c main_v0) (V m c main_arg2) (V m c main_arg3) (V m c main_arg4) (V m c main_arg5) (V m c main_arg6) (V m c main_arg7))
        slices_S102400x1_S100000x1_0_0)
      shapeCasts_S100000x1_S100000
    = energies (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  funext a
  obtain ⟨p, rfl⟩ : ∃ p : Fin 100000, a = ix1 p := ⟨a 0, eq_ix1 a⟩
  have hp : p.val < 102400 := by have := p.isLt; omega
  rw [shapeCast_apply _ _ (ix1 p) (ix2 p (0 : Fin 1)) (by
    rw [Shape.rowMajor_val_two, Shape.rowMajor_val_one]; show p.val * 1 + 0 = p.val; omega)]
  rw [extractStridedSlice_apply _ _ _ (ix2 p (0 : Fin 1)) (ix2 (⟨p.val, hp⟩ : Fin 102400) (0 : Fin 1)) (fun b => by
    match b with
    | ⟨0, _⟩ => show p.val = 0 + p.val; omega
    | ⟨1, _⟩ => show 0 = 0 + 0; rfl)]
  exact energy_congr (funext fun i => padded_row m c p i) (V_main_arg2 m c) (V_main_arg3 m c) (V_main_arg4 m c)
    (V_main_arg5 m c) (V_main_arg6 m c) (V_main_arg7 m c)

/-- THE RESULT BUFFER after the lines that follow the region: the atoms' energies pooled and rescaled. -/
theorem result (c : Dev nD) :
    Pipeline.afterTail₀ cfgs (dats m) 0 (V0 m) [hostOps1] c main_v10
      = pooled (m ((c : Thread nD τ).loc main_arg1))
          (energies (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))) := by
  unfold Pipeline.afterTail₀
  show StableHlo.after hostOps1 _ (Proc.devRef .tc main_v10) = _
  after_results
  have h1 : Pipeline.withArrays (cfgs 0).spec c (V0 m c) (fun w => (dats m 0 c).arrAt w (cfgs 0).N) (Proc.devRef .tc main_v1)
      = column (V m c main_v0) (V m c main_arg2) (V m c main_arg3) (V m c main_arg4) (V m c main_arg5) (V m c main_arg6) (V m c main_arg7) :=
    (Pipeline.withArrays_arr spec0 launch0.win.arr_inj c _ _ 7).trans (final m c)
  have h2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [h1, h2, ← kept m c]
  rfl

/-- THE RUN, READ: every weakly fair execution ends with the result buffer at the atoms' energies pooled and
    rescaled, and the eight arguments as launched. -/
theorem run : θ_run defs (onTc (τ := τ) (main (F := Ideal))) ⟨m, fun _ => 0, ρ⟩ fun r => ∀ c : Dev nD,
      r.2.mem ((c.tc : Thread nD τ).loc main_v10)
        = pooled (m ((c.tc : Thread nD τ).loc main_arg1))
            (energies (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v10 (Pipeline.mem_restRefs_of main_v10 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end Cert.KernelIdeal.Result

end
-- ==== Proof.RefRow.lean ====
/-
  What the reference computes for one atom.

  The reference applies the three layers to the whole [100000, 256] feature array at once.  Read one operation at a
  time at an index, entry (p, j) of a product is the sum over the contracted axis of row `p` of the left operand
  against column `j` of the right one; a bias vector is spread first to one row and then down all rows, so it adds
  `b(j)`; the unit is spelt `v · (1 / (1 + e^(−v)))` with the word of the number one; and the last reshape drops the
  unit axis.  So entry `p` of the energies' vector is the energy of feature row `p`, and of no other row.
-/
import proofs.«146639_j12189117186315_1_alg».proof.Proof.Gen.ReferenceIdeal.Read
import proofs.«146639_j12189117186315_1_alg».proof.Proof.AtomEnergy
import Idealize.ShloMosaic.Lib.ValueIdx
import Idealize.ShloMosaic.Lib.IdealHost

noncomputable section

namespace Cert.ReferenceIdeal.Row

open Cert.ReferenceIdeal Cert.ReferenceIdeal.Read Idealize.ShloMosaic Idealize.ShloMosaic.ValueIdx Cert.AtomEnergy

variable (x0 : (⟨S100000x256, .f32⟩ : BufTy).Contents (Elt Ideal)) (x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal)) (x6 : (⟨S256x1, .f32⟩ : BufTy).Contents (Elt Ideal))
  (x7 : (⟨S1, .f32⟩ : BufTy).Contents (Elt Ideal))

/-- The first pre-activation at (p, j): row `p` of the features against column `j` of the first weights, plus bias `j`. -/
theorem v3_at (p : Fin 100000) (j : Fin 256) :
    val_main_v3 (F := Ideal) x0 x2 x3 (ix2 p j) = (∑ i : Fin 256, x0 (ix2 p i) * x2 (ix2 i j)) + x3 (ix1 j) := by
  rw [val_main_v3_apply, val_main_v0_apply, val_main_v2_apply, val_main_v1_apply]
  have el : ∀ k : Fin 256, lidx_main_v0 (ix2 p j) k = ix2 p k := fun k => funext fun a => Fin.ext (by
    match a with
    | ⟨0, _⟩ => rfl
    | ⟨1, _⟩ => rfl)
  have er : ∀ k : Fin 256, ridx_main_v0 (ix2 p j) k = ix2 k j := fun k => funext fun a => Fin.ext (by
    match a with
    | ⟨0, _⟩ => rfl
    | ⟨1, _⟩ => rfl)
  have eb : idx_main_v1 (idx_main_v2 (ix2 p j)) = ix1 j := funext fun a => Fin.ext (by
    match a with
    | ⟨0, _⟩ => rfl)
  simp only [el, er, eb]
  rfl

/-- The first hidden layer at (p, j) is the layer of feature row `p` at feature `j`. -/
theorem v4_at (p : Fin 100000) (j : Fin 256) :
    val_main_v4 (F := Ideal) x0 x2 x3 (ix2 p j) = hidden (fun i => x0 (ix2 p i)) x2 x3 j := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, v3_at]
  exact silu_quotient _

/-- The second pre-activation at (p, k): the first hidden layer of row `p` against column `k` of the second weights,
    plus bias `k`. -/
theorem v8_at (p : Fin 100000) (k : Fin 256) :
    val_main_v8 (F := Ideal) x0 x2 x3 x4 x5 (ix2 p k)
      = (∑ j : Fin 256, hidden (fun i => x0 (ix2 p i)) x2 x3 j * x4 (ix2 j k)) + x5 (ix1 k) := by
  rw [val_main_v8_apply, val_main_v5_apply, val_main_v7_apply, val_main_v6_apply]
  have el : ∀ j : Fin 256, lidx_main_v5 (ix2 p k) j = ix2 p j := fun j => funext fun a => Fin.ext (by
    match a with
    | ⟨0, _⟩ => rfl
    | ⟨1, _⟩ => rfl)
  have er : ∀ j : Fin 256, ridx_main_v5 (ix2 p k) j = ix2 j k := fun j => funext fun a => Fin.ext (by
    match a with
    | ⟨0, _⟩ => rfl
    | ⟨1, _⟩ => rfl)
  have eb : idx_main_v6 (idx_main_v7 (ix2 p k)) = ix1 k := funext fun a => Fin.ext (by
    match a with
    | ⟨0, _⟩ => rfl)
  simp only [el, er, eb, v4_at]
  rfl

/-- The second hidden layer at (p, k) is the layer of the first hidden layer of row `p`. -/
theorem v9_at (p : Fin 100000) (k : Fin 256) :
    val_main_v9 (F := Ideal) x0 x2 x3 x4 x5 (ix2 p k)
      = hidden (hidden (fun i => x0 (ix2 p i)) x2 x3) x4 x5 k := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, v8_at]
  exact silu_quotient _

/-- ENTRY `p` OF THE ENERGIES' VECTOR is the energy of feature row `p`. -/
theorem v14_at (p : Fin 100000) :
    val_main_v14 (F := Ideal) x0 x2 x3 x4 x5 x6 x7 (ix1 p) = energy (fun i => x0 (ix2 p i)) x2 x3 x4 x5 x6 x7 := by
  rw [val_main_v14_apply, val_main_v13_apply, val_main_v10_apply, val_main_v12_apply, val_main_v11_apply]
  have el : ∀ k : Fin 256, lidx_main_v10 (idx_main_v14 (ix1 p)) k = ix2 p k := fun k => funext fun a => Fin.ext (by
    match a with
    | ⟨0, _⟩ => exact Nat.div_one _
    | ⟨1, _⟩ => rfl)
  have er : ∀ k : Fin 256, ridx_main_v10 (idx_main_v14 (ix1 p)) k = ix2 k (0 : Fin 1) := fun k => funext fun a => Fin.ext (by
    match a with
    | ⟨0, _⟩ => rfl
    | ⟨1, _⟩ => rfl)
  have eb : idx_main_v11 (idx_main_v12 (idx_main_v14 (ix1 p))) = ix1 (0 : Fin 1) := funext fun a => Fin.ext (by
    match a with
    | ⟨0, _⟩ => rfl)
  simp only [el, er, eb, v9_at]
  rfl

end Cert.ReferenceIdeal.Row

end
-- ==== Proof.Bridge.lean ====
/-
  The reference's result is the kernel program's result, as functions of the eight arguments.

  The reference's last stages are the same pooling and rescaling the kernel program ends with — the same scatter with
  addition into zeros by the same molecule numbers, the same two constants word for word — applied to its vector of
  energies; and entry `p` of that vector is the energy of feature row `p`, exactly what the kernel program keeps at
  entry `p`.  So the two results are one function.
-/
import proofs.«146639_j12189117186315_1_alg».proof.Proof.KernelResult
import proofs.«146639_j12189117186315_1_alg».proof.Proof.RefRow

noncomputable section

namespace Cert.Bridge

open Idealize.ShloMosaic Idealize.ShloMosaic.ValueIdx

/-- The reference's vector of energies is the atoms' energies. -/
theorem reference_energies
    (x0 : (⟨Cert.ReferenceIdeal.S100000x256, .f32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal))
    (x4 : (⟨Cert.ReferenceIdeal.S256x256, .f32⟩ : BufTy).Contents (Elt Ideal))
    (x5 : (⟨Cert.ReferenceIdeal.S256, .f32⟩ : BufTy).Contents (Elt Ideal))
    (x6 : (⟨Cert.ReferenceIdeal.S256x1, .f32⟩ : BufTy).Contents (Elt Ideal))
    (x7 : (⟨Cert.ReferenceIdeal.S1, .f32⟩ : BufTy).Contents (Elt Ideal)) :
    Cert.ReferenceIdeal.Read.val_main_v14 (F := Ideal) x0 x2 x3 x4 x5 x6 x7
      = Cert.KernelIdeal.Result.energies x0 x2 x3 x4 x5 x6 x7 := by
  funext a
  obtain ⟨p, rfl⟩ : ∃ p : Fin 100000, a = ix1 p := ⟨a 0, eq_ix1 a⟩
  exact Cert.ReferenceIdeal.Row.v14_at x0 x2 x3 x4 x5 x6 x7 p

/-- THE REFERENCE'S RESULT STAGE is the atoms' energies pooled and rescaled. -/
theorem reference_result
    (x0 : (⟨Cert.ReferenceIdeal.S100000x256, .f32⟩ : BufTy).Contents (Elt Ideal))
    (x1 : (⟨Cert.ReferenceIdeal.S100000, .i32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal))
    (x4 : (⟨Cert.ReferenceIdeal.S256x256, .f32⟩ : BufTy).Contents (Elt Ideal))
    (x5 : (⟨Cert.ReferenceIdeal.S256, .f32⟩ : BufTy).Contents (Elt Ideal))
    (x6 : (⟨Cert.ReferenceIdeal.S256x1, .f32⟩ : BufTy).Contents (Elt Ideal))
    (x7 : (⟨Cert.ReferenceIdeal.S1, .f32⟩ : BufTy).Contents (Elt Ideal)) :
    Cert.ReferenceIdeal.Read.val_main_v21 (F := Ideal) x0 x1 x2 x3 x4 x5 x6 x7
      = Cert.KernelIdeal.Result.pooled x1 (Cert.KernelIdeal.Result.energies x0 x2 x3 x4 x5 x6 x7) := by
  unfold Cert.ReferenceIdeal.Read.val_main_v21 Cert.ReferenceIdeal.Read.val_main_v19 Cert.ReferenceIdeal.Read.val_main_v17
  rw [reference_energies]
  rfl

end Cert.Bridge

end
-- ==== Proof.lean ====
/-
  The kernel program against its reference: an atom-wise three-layer perceptron (256 → 256 → 256 → 1 features, the
  sigmoid-weighted linear unit between layers), the atoms' energies summed per molecule, one scale and one shift.

  The kernel program pads the 100000 feature rows to 102400, computes the perceptron block by block (25 blocks of 4096
  rows, each block from its own rows and the shared weights), keeps the first 100000 energies, and pools them.  The
  reference computes the perceptron over all rows at once and pools.  Over the extended reals, with exact
  operations: a rounding to a 16-bit format is the identity; a product into a zero accumulator and a host product are
  both the plain sum over the contracted axis; the logistic function is by definition the quotient `1 / (1 + e^(−v))`
  the reference writes out; and an atom's energy depends on that atom's feature row alone, so neither the blocking nor
  the discarded padding rows change any kept entry.  The poolings agree operation for operation and constant for
  constant.  No finiteness is used: the two results are equal as functions of arbitrary extended-real arguments.

  The three frames are the generated frame runs (the reference's is its generated run with the result dropped); the
  idealization rewrote no operation, so its conjunct is trivial.
-/
import proofs.«146639_j12189117186315_1_alg».proof.Defs
import proofs.«146639_j12189117186315_1_alg».proof.Proof.Gen.Kernel
import proofs.«146639_j12189117186315_1_alg».proof.Proof.Gen.Kernel.Skeleton
import proofs.«146639_j12189117186315_1_alg».proof.Proof.Gen.Kernel.Launch
import proofs.«146639_j12189117186315_1_alg».proof.Proof.Gen.Kernel.Points
import proofs.«146639_j12189117186315_1_alg».proof.Proof.Gen.Kernel.Frame
import proofs.«146639_j12189117186315_1_alg».proof.Proof.Gen.KernelIdeal
import proofs.«146639_j12189117186315_1_alg».proof.Proof.Gen.KernelIdeal.Skeleton
import proofs.«146639_j12189117186315_1_alg».proof.Proof.Gen.KernelIdeal.Launch
import proofs.«146639_j12189117186315_1_alg».proof.Proof.Gen.KernelIdeal.Points
import proofs.«146639_j12189117186315_1_alg».proof.Proof.Gen.KernelIdeal.Frame
import proofs.«146639_j12189117186315_1_alg».proof.Proof.Gen.ReferenceIdeal
import proofs.«146639_j12189117186315_1_alg».proof.Proof.Gen.Pre_finite_inputs
import proofs.«146639_j12189117186315_1_alg».proof.Proof.Gen.ReferenceIdeal.Run
import proofs.«146639_j12189117186315_1_alg».proof.Proof.Gen.ReferenceIdeal.Read
import proofs.«146639_j12189117186315_1_alg».proof.Proof.KernelResult
import proofs.«146639_j12189117186315_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eight arguments both programs end with the atoms' energies pooled and rescaled. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _ _ _ _ _).trans ?_
  obtain ⟨a0, a1, a2, a3, a4, a5, a6, a7⟩ := hagree c
  rw [a0, a1, a2, a3, a4, a5, a6, a7]
  exact Cert.Bridge.reference_result _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
